-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x256 : Shape := ⟨2, ![500000, 256]⟩
abbrev S63488 : Shape := ⟨1, ![63488]⟩
abbrev S_ : Shape := ⟨0, ![]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S63488 : S_.BroadcastsInDim S63488 (![] : Fin 0 → Fin S63488.rank)
  reducesTo_S63488_S_d0 : S63488.ReducesTo [0] S_

variable [Facts]

def fn {F : FTy → Type} [FloatOps F] (main_arg0 : FVec F S500000x256 .f32) (main_arg1 : FVec F S63488 .f32) (main_arg2 : IVec S63488 32) (main_arg3 : IVec S63488 32) : IVec S_ 1 :=
  let main_v0 : FVec F S500000x256 .f32 := Host.absf main_arg0
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S63488 .f32 := Host.absf main_arg1
  let main_cst_0 : FVec F S_ .f32 := constant S_ .f32 0x7F800000#32
  let main_v5 : FVec F S63488 .f32 := broadcastInDim S63488 ![] bcast_S_S63488 main_cst_0
  let main_v6 : IVec S63488 1 := cmpf .olt main_v4 main_v5
  let main_c_1 : IVec S_ 1 := constantI S_ 1 1#1
  let main_v7 : IVec S_ 1 := (fun x v => Host.reduce IntOp.andi x v reducesTo_S63488_S_d0 h_S_) main_v6 main_c_1
  let main_v8 : IVec S_ 1 := andi main_v3 main_v7
  main_v8
-- ==== Kernel.lean ====
abbrev S500000x256 : Shape := ⟨2, ![500000, 256]⟩
abbrev S63488 : Shape := ⟨1, ![63488]⟩
abbrev S_ : Shape := ⟨0, ![]⟩
abbrev S256x256 : Shape := ⟨2, ![256, 256]⟩
abbrev S63488x1 : Shape := ⟨2, ![63488, 1]⟩
abbrev S63488x2 : Shape := ⟨2, ![63488, 2]⟩
abbrev S5000x256 : Shape := ⟨2, ![5000, 256]⟩

abbrev nBuf : Space → Nat
  | .hbm => 26
  | .vmem => 5
  | .smem => 0
  | _ => 0

abbrev bufTy : (tb : Table) → Fin (tcTables nBuf tb) → BufTy
  | .hbm, ⟨0, _⟩ => ⟨S500000x256, .f32⟩
  | .hbm, ⟨1, _⟩ => ⟨S63488, .f32⟩
  | .hbm, ⟨2, _⟩ => ⟨S63488, .i32⟩
  | .hbm, ⟨3, _⟩ => ⟨S63488, .i32⟩
  | .hbm, ⟨4, _⟩ => ⟨S_, .f32⟩
  | .hbm, ⟨5, _⟩ => ⟨S256x256, .f32⟩
  | .hbm, ⟨6, _⟩ => ⟨S_, .i32⟩
  | .hbm, ⟨7, _⟩ => ⟨S63488, .i32⟩
  | .hbm, ⟨8, _⟩ => ⟨S63488, .i1⟩
  | .hbm, ⟨9, _⟩ => ⟨S_, .i32⟩
  | .hbm, ⟨10, _⟩ => ⟨S63488, .i32⟩
  | .hbm, ⟨11, _⟩ => ⟨S63488, .i32⟩
  | .hbm, ⟨12, _⟩ => ⟨S63488, .i32⟩
  | .hbm, ⟨13, _⟩ => ⟨S_, .i32⟩
  | .hbm, ⟨14, _⟩ => ⟨S63488, .i32⟩
  | .hbm, ⟨15, _⟩ => ⟨S63488, .i1⟩
  | .hbm, ⟨16, _⟩ => ⟨S_, .i32⟩
  | .hbm, ⟨17, _⟩ => ⟨S63488, .i32⟩
  | .hbm, ⟨18, _⟩ => ⟨S63488, .i32⟩
  | .hbm, ⟨19, _⟩ => ⟨S63488, .i32⟩
  | .hbm, ⟨20, _⟩ => ⟨S63488x1, .i32⟩
  | .hbm, ⟨21, _⟩ => ⟨S63488x1, .i32⟩
  | .hbm, ⟨22, _⟩ => ⟨S63488x2, .i32⟩
  | .hbm, ⟨23, _⟩ => ⟨S256x256, .f32⟩
  | .hbm, ⟨24, _⟩ => ⟨S256x256, .bf16⟩
  | .hbm, ⟨25, _⟩ => ⟨S500000x256, .f32⟩
  | .local _ .vmem, ⟨0, _⟩ => ⟨S5000x256, .f32⟩
  | .local _ .vmem, ⟨1, _⟩ => ⟨S5000x256, .f32⟩
  | .local _ .vmem, ⟨2, _⟩ => ⟨S256x256, .bf16⟩
  | .local _ .vmem, ⟨3, _⟩ => ⟨S5000x256, .f32⟩
  | .local _ .vmem, ⟨4, _⟩ => ⟨S5000x256, .f32⟩
  | _, _ => ⟨S500000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S256x256 : S_.BroadcastsInDim S256x256 (![] : Fin 0 → Fin S256x256.rank)
  bcast_S_S63488 : S_.BroadcastsInDim S63488 (![] : Fin 0 → Fin S63488.rank)
  bcast_S63488_S63488x1_0 : S63488.BroadcastsInDim S63488x1 (![0] : Fin 1 → Fin S63488x1.rank)
  concatenates_S63488x1_S63488x1_S63488x2_d1 : Shape.Concatenates [S63488x1, S63488x1] S63488x2 1
  bitsLt_bf16_f32 : FTy.bits .bf16 < FTy.bits .f32
  inb_S5000x256_S5000x256_0_0 : ∀ a, (![0, 0] : Fin 2 → Nat) a + S5000x256.size a ≤ S5000x256.size a
  h_S5000x256 : 0 < S5000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  scatter_S256x256_S63488x2_S63488_n_01_01_1_wf : ScatterDims.WF S256x256 S63488x2 S63488 [] [0, 1] [0, 1] 1
  dot_S5000x256_S256x256_S5000x256_1_0_0_1_n_n_wf : DotDims.WF S5000x256 S256x256 S5000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S500000x256.size a
  hwx0_0 : ∀ i : grid0.Coords, EltTy.bits .f32 = 32 ∨ (Rect.block (s := S500000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S500000x256.size a
  hwx0_2 : ∀ i : grid0.Coords, EltTy.bits .f32 = 32 ∨ (Rect.block (s := S500000x256) S5000x256.size (cc0_transform_2 i) (hinb0_2 i)).WholeWords (EltTy.packing .f32)

variable [Facts₀]

def scatter_S256x256_S63488x2_S63488_n_01_01_1 : ScatterDims S256x256 S63488x2 S63488 where
  updateWindowDims := []
  insertedWindowDims := [0, 1]
  scatterDimsToOperandDims := [0, 1]
  indexVectorDim := 1
  wf := scatter_S256x256_S63488x2_S63488_n_01_01_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000x256 : Shape := ⟨2, ![500000, 256]⟩
abbrev S63488 : Shape := ⟨1, ![63488]⟩
abbrev S_ : Shape := ⟨0, ![]⟩
abbrev S256x256 : Shape := ⟨2, ![256, 256]⟩
abbrev S63488x1 : Shape := ⟨2, ![63488, 1]⟩
abbrev S63488x2 : Shape := ⟨2, ![63488, 2]⟩

abbrev nBuf : Space → Nat
  | .hbm => 25
  | .vmem => 0
  | .smem => 0
  | _ => 0

abbrev bufTy : (tb : Table) → Fin (tcTables nBuf tb) → BufTy
  | .hbm, ⟨0, _⟩ => ⟨S500000x256, .f32⟩
  | .hbm, ⟨1, _⟩ => ⟨S63488, .f32⟩
  | .hbm, ⟨2, _⟩ => ⟨S63488, .i32⟩
  | .hbm, ⟨3, _⟩ => ⟨S63488, .i32⟩
  | .hbm, ⟨4, _⟩ => ⟨S_, .f32⟩
  | .hbm, ⟨5, _⟩ => ⟨S256x256, .f32⟩
  | .hbm, ⟨6, _⟩ => ⟨S_, .i32⟩
  | .hbm, ⟨7, _⟩ => ⟨S63488, .i32⟩
  | .hbm, ⟨8, _⟩ => ⟨S63488, .i1⟩
  | .hbm, ⟨9, _⟩ => ⟨S_, .i32⟩
  | .hbm, ⟨10, _⟩ => ⟨S63488, .i32⟩
  | .hbm, ⟨11, _⟩ => ⟨S63488, .i32⟩
  | .hbm, ⟨12, _⟩ => ⟨S63488, .i32⟩
  | .hbm, ⟨13, _⟩ => ⟨S_, .i32⟩
  | .hbm, ⟨14, _⟩ => ⟨S63488, .i32⟩
  | .hbm, ⟨15, _⟩ => ⟨S63488, .i1⟩
  | .hbm, ⟨16, _⟩ => ⟨S_, .i32⟩
  | .hbm, ⟨17, _⟩ => ⟨S63488, .i32⟩
  | .hbm, ⟨18, _⟩ => ⟨S63488, .i32⟩
  | .hbm, ⟨19, _⟩ => ⟨S63488, .i32⟩
  | .hbm, ⟨20, _⟩ => ⟨S63488x1, .i32⟩
  | .hbm, ⟨21, _⟩ => ⟨S63488x1, .i32⟩
  | .hbm, ⟨22, _⟩ => ⟨S63488x2, .i32⟩
  | .hbm, ⟨23, _⟩ => ⟨S256x256, .f32⟩
  | .hbm, ⟨24, _⟩ => ⟨S500000x256, .f32⟩
  | _, _ => ⟨S500000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  bcast_S_S63488 : S_.BroadcastsInDim S63488 (![] : Fin 0 → Fin S63488.rank)
  bcast_S63488_S63488x1_0 : S63488.BroadcastsInDim S63488x1 (![0] : Fin 1 → Fin S63488x1.rank)
  concatenates_S63488x1_S63488x1_S63488x2_d1 : Shape.Concatenates [S63488x1, S63488x1] S63488x2 1
  scatter_S256x256_S63488x2_S63488_n_01_01_1_wf : ScatterDims.WF S256x256 S63488x2 S63488 [] [0, 1] [0, 1] 1
  dot_S500000x256_S256x256_S500000x256_1_0_0_1_n_n_wf : DotDims.WF S500000x256 S256x256 S500000x256 [1] [0] [0] [1] [] []

variable [Facts₀]

def scatter_S256x256_S63488x2_S63488_n_01_01_1 : ScatterDims S256x256 S63488x2 S63488 where
  updateWindowDims := []
  insertedWindowDims := [0, 1]
  scatterDimsToOperandDims := [0, 1]
  indexVectorDim := 1
  wf := scatter_S256x256_S63488x2_S63488_n_01_01_1_wf
def dot_S500000x256_S256x256_S500000x256_1_0_0_1_n_n : DotDims S500000x256 S256x256 S500000x256 where
  lhsContracting := [1]
  rhsContracting := [0]
  lhsNonContracting := [0]
  rhsNonContracting := [1]
  lhsBatch := []
  rhsBatch := []
  wf := dot_S500000x256_S256x256_S500000x256_1_0_0_1_n_n_wf

class Facts : Prop extends Facts₀ where

variable [Facts]
-- ==== Proof.MatProd.lean ====
/-
  The product of an array of 500000 rows of 256 entries with a 256 × 256 matrix, entry by entry on the
  extended reals: entry (r, c) is the sum over k of X (r, k) · W (k, c).

  Both programs of this certificate compute this one function of the same X and the same W. The kernel
  computes it 5000 rows at a time, each block of rows against the whole matrix; the reference computes it
  in one contraction. Row r of the result depends on row r of X only, so cutting the rows into blocks changes
  nothing, and inside one entry both sides sum the same 256 products over the same index k: no law of the
  extended reals beyond the definition of a finite sum is needed, and no entry has to be finite.
-/
import Idealize.ShloMosaic.PureOps.Ideal
import Idealize.ShloMosaic.Lib.ValueIdx

noncomputable section

open scoped BigOperators

namespace Cert.MatProd

open Idealize.ShloMosaic Idealize.ShloMosaic.ValueIdx

/-- Rows of `X` against columns of `W`: entry `(r, c)` is `∑ k, X (r, k) · W (k, c)`. -/
def rowsByMatrix (X : (⟨2, ![500000, 256]⟩ : Shape).Idx → EReal) (W : (⟨2, ![256, 256]⟩ : Shape).Idx → EReal) :
    (⟨2, ![500000, 256]⟩ : Shape).Idx → EReal :=
  fun i => ∑ k : Fin 256, X (ix2 (i 0) k) * W (ix2 k (i 1))

/-- The same, at an index given by its row and its column. -/
theorem rowsByMatrix_apply (X : (⟨2, ![500000, 256]⟩ : Shape).Idx → EReal) (W : (⟨2, ![256, 256]⟩ : Shape).Idx → EReal)
    (r : Fin 500000) (c : Fin 256) :
    rowsByMatrix X W (ix2 r c) = ∑ k : Fin 256, X (ix2 r k) * W (ix2 k c) := rfl

end Cert.MatProd

end
-- ==== Proof.BlockProd.lean ====
/-
  What the kernel body computes from one block of rows, read at one entry.

  The body loads a block `x` of 5000 rows of 256 entries and the whole 256 × 256 matrix `w`, narrows `x` to the
  matrix unit's input format (the identity on the extended reals), and multiplies them into a zero
  accumulator. Entry (p, q) of what it stores is therefore `∑ k, x (p, k) · w (k, q)`: the contraction runs
  over the one shared axis, of extent 256, and the zero accumulator adds nothing.
-/
import proofs.«145697_j35381940584576_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.BlockProd

open Cert.KernelIdeal Cert.KernelIdeal.Gen Idealize.ShloMosaic Idealize.ShloMosaic.ValueIdx

/-- The left operand of the block product is read at the output's row … -/
theorem lhs_row (j : S5000x256.Idx) (k : dot_S5000x256_S256x256_S5000x256_1_0_0_1_n_n.contr.Idx) :
    (dot_S5000x256_S256x256_S5000x256_1_0_0_1_n_n.lhsIdx j k 0).val = (j 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl

/-- … and at the contracted index along its columns. -/
theorem lhs_col (j : S5000x256.Idx) (k : dot_S5000x256_S256x256_S5000x256_1_0_0_1_n_n.contr.Idx) :
    (dot_S5000x256_S256x256_S5000x256_1_0_0_1_n_n.lhsIdx j k 1).val = (k ⟨0, by decide⟩).val :=
  dot_S5000x256_S256x256_S5000x256_1_0_0_1_n_n.lhsIdx_val_of_single rfl j k

/-- The right operand is read at the contracted index along its rows … -/
theorem rhs_row (j : S5000x256.Idx) (k : dot_S5000x256_S256x256_S5000x256_1_0_0_1_n_n.contr.Idx) :
    (dot_S5000x256_S256x256_S5000x256_1_0_0_1_n_n.rhsIdx j k 0).val = (k ⟨0, by decide⟩).val :=
  dot_S5000x256_S256x256_S5000x256_1_0_0_1_n_n.rhsIdx_val_of_single rfl j k

/-- … and at the output's column. -/
theorem rhs_col (j : S5000x256.Idx) (k : dot_S5000x256_S256x256_S5000x256_1_0_0_1_n_n.contr.Idx) :
    (dot_S5000x256_S256x256_S5000x256_1_0_0_1_n_n.rhsIdx j k 1).val = (j 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- Entry `(p, q)` of what the body stores, from the block `x` and the matrix `w` it loaded: row `p` of `x` against
    column `q` of `w`. -/
theorem stored_apply (x : Vec Ideal S5000x256 .f32) (w : Vec Ideal S256x256 .bf16) (p : Fin 5000) (q : Fin 256) :
    k0_pay1 (F := Ideal) x w (ix2 p q) = ∑ k : Fin 256, x (ix2 p k) * w (ix2 k q) := by
  unfold k0_pay1
  show FloatOps.matmul (φ₁ := .bf16) (φ₂ := .bf16) dot_S5000x256_S256x256_S5000x256_1_0_0_1_n_n none
    (truncf .bf16 x bitsLt_bf16_f32 : FVec Ideal S5000x256 .bf16)
    (shapeCast S256x256 (w : S256x256.Idx → Ideal .bf16) shapeCasts_S256x256_S256x256 : FVec Ideal S256x256 .bf16)
    (constant S5000x256 .f32 0x00000000#32) (ix2 p q) = _
  rw [shapeCast_self, Ideal.matmul_constant_zero_apply,
    ← Equiv.sum_comp (contrEquiv1 dot_S5000x256_S256x256_S5000x256_1_0_0_1_n_n 256 rfl rfl).symm]
  refine Finset.sum_congr rfl fun k _ => ?_
  have hk := contrEquiv1_symm_val dot_S5000x256_S256x256_S5000x256_1_0_0_1_n_n 256 rfl rfl k
  have el : dot_S5000x256_S256x256_S5000x256_1_0_0_1_n_n.lhsIdx (ix2 p q)
      ((contrEquiv1 dot_S5000x256_S256x256_S5000x256_1_0_0_1_n_n 256 rfl rfl).symm k) = ix2 p k :=
    funext fun a => Fin.ext (by
      match a with
      | ⟨0, _⟩ => exact lhs_row _ _
      | ⟨1, _⟩ => exact (lhs_col _ _).trans hk)
  have er : dot_S5000x256_S256x256_S5000x256_1_0_0_1_n_n.rhsIdx (ix2 p q)
      ((contrEquiv1 dot_S5000x256_S256x256_S5000x256_1_0_0_1_n_n 256 rfl rfl).symm k) = ix2 k q :=
    funext fun a => Fin.ext (by
      match a with
      | ⟨0, _⟩ => exact (rhs_row _ _).trans hk
      | ⟨1, _⟩ => exact rhs_col _ _)
  rw [el, er]
  rfl

end Cert.KernelIdeal.BlockProd

end
-- ==== Proof.ScatteredMatrix.lean ====
/-
  The matrix the kernel's region multiplies by.

  Before the region the program builds a 256 × 256 matrix from three of its arguments: it starts from zeros,
  takes the two integer position arrays, moves every negative position up by 256, pairs them as (row, column),
  and scatters the 63488 weights to those positions; last it narrows the matrix's float format, which changes
  no value on the extended reals. None of this is ever evaluated here: the matrix enters the product as one
  function of the three arguments, and the reference builds its own by the same operations.
-/
import proofs.«145697_j35381940584576_2_alg».proof.Proof.Gen.KernelIdeal.Frame
import Idealize.ShloMosaic.Lib.StableHlo.Run
import Idealize.ShloMosaic.PureOps.Ideal

noncomputable section

namespace Cert.KernelIdeal.Matrix

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ)

/-- The zero matrix the weights are scattered into. -/
def zeros : (⟨S256x256, .f32⟩ : BufTy).Contents (Elt Ideal) :=
  broadcastInDim S256x256 ![] bcast_S_S256x256 (constant (F := Ideal) S_ .f32 0x00000000#32)

/-- A position array with its negative entries moved up by 256. -/
def wrapped (x : (⟨S63488, .i32⟩ : BufTy).Contents (Elt Ideal)) : (⟨S63488, .i32⟩ : BufTy).Contents (Elt Ideal) :=
  select (cmpi .slt (x) (broadcastInDim S63488 ![] bcast_S_S63488 (constantI S_ 32 0#32))) (addi (x) (broadcastInDim S63488 ![] bcast_S_S63488 (constantI S_ 32 256#32))) (x)

/-- The (row, column) pairs the weights go to: the two wrapped position arrays side by side. -/
def positions (x2 x3 : (⟨S63488, .i32⟩ : BufTy).Contents (Elt Ideal)) : (⟨S63488x2, .i32⟩ : BufTy).Contents (Elt Ideal) :=
  concatenate S63488x2 1 [⟨S63488x1, (broadcastInDim S63488x1 ![0] bcast_S63488_S63488x1_0 (wrapped x2))⟩, ⟨S63488x1, (broadcastInDim S63488x1 ![0] bcast_S63488_S63488x1_0 (wrapped x3))⟩] concatenates_S63488x1_S63488x1_S63488x2_d1

/-- The matrix as the host operations before the region build it from the weights `x1` and the two position
    arrays `x2`, `x3`: the weights scattered into zeros at those positions, then the change of format. -/
def scattered (x1 : (⟨S63488, .f32⟩ : BufTy).Contents (Elt Ideal)) (x2 x3 : (⟨S63488, .i32⟩ : BufTy).Contents (Elt Ideal)) :
    (⟨S256x256, .bf16⟩ : BufTy).Contents (Elt Ideal) :=
  truncf (F := Ideal) (φ := .f32) .bf16
    (Host.scatter scatter_S256x256_S63488x2_S63488_n_01_01_1 (fun _ b => b) zeros (positions x2 x3) x1) bitsLt_bf16_f32

set_option maxHeartbeats 2000000 in
/-- The region finds the matrix's buffer holding `scattered` of the three arguments as launched. -/
theorem matrix_found (c : Dev nD) :
    (V m c main_v15 : (⟨S256x256, .bf16⟩ : BufTy).Contents (Elt Ideal))
      = scattered (m ((c : Thread nD τ).loc main_arg1)) (m ((c : Thread nD τ).loc main_arg2)) (m ((c : Thread nD τ).loc main_arg3)) := by
  dsimp only [V, hostOps0]
  after_results_simp
  rfl

end Cert.KernelIdeal.Matrix

end
-- ==== Proof.KernelArray.lean ====
/-
  The array the kernel's run leaves, as one function of the arguments.

  The region finds a 256 × 256 matrix that the host operations before it built from the other three arguments
  (`Matrix.scattered`). It visits 100 points; point `t` reads rows
  `5000·t … 5000·t + 4999` of the first argument and the whole matrix, and writes the same rows of the result.
  Entry (p, q) of what it writes is row p of its block against column q of the matrix, that is entry
  `(5000·t + p, q)` of the product of the whole first argument with the matrix. The 100 blocks of rows tile the
  result (row `r` lies in block `r / 5000`), so after the run the result IS that product.
-/
import proofs.«145697_j35381940584576_2_alg».proof.Proof.Gen.KernelIdeal.Value
import proofs.«145697_j35381940584576_2_alg».proof.Proof.BlockProd
import proofs.«145697_j35381940584576_2_alg».proof.Proof.ScatteredMatrix
import proofs.«145697_j35381940584576_2_alg».proof.Proof.MatProd
import Idealize.ShloMosaic.Lib.Pipeline.Value
import Idealize.ShloMosaic.Lib.Tactic

noncomputable section

open scoped BigOperators

namespace Cert.KernelIdeal.Whole

open Cert.KernelIdeal Cert.KernelIdeal.Gen Cert.KernelIdeal.Value Cert.KernelIdeal.Matrix
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The blocks a point reads -/

theorem hz : (![0, 0] : Fin 2 → Nat) = fun _ => 0 := funext fun a => by fin_cases a <;> rfl

/-- The printed index maps over the grid: point `t` is at block row `t` of the first argument and of the result,
    both at block column 0, and at the one block of the matrix. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of the block of rows at point `t` is row `5000·t + p` of the first argument as the region finds it. -/
theorem rows_block_apply (c : Dev nD) (t : Fin cfg0.N) (p : Fin 5000) (k : Fin 256) (i : S500000x256.Idx)
    (hi0 : (i 0).val = t.val * 5000 + p.val) (hi1 : (i 1).val = k.val) :
    (iblk m c 0 t : Vec Ideal S5000x256 .f32) (ix2 p k) = (V m c main_arg0 : S500000x256.Idx → EReal) i := by
  obtain ⟨e00, e01, -⟩ := block_positions t
  unfold iblk
  rw [View.read_apply]
  show (V m c main_arg0 : S500000x256.Idx → EReal) _ = (V m c main_arg0 : S500000x256.Idx → EReal) i
  refine congrArg (V m c main_arg0 : S500000x256.Idx → EReal) ?_
  funext a
  apply Fin.ext
  match a with
  | ⟨0, _⟩ => show win0_0.index t (0 : Fin 2) * 5000 + 1 * p.val = (i 0).val; omega
  | ⟨1, _⟩ => show win0_0.index t (1 : Fin 2) * 256 + 1 * k.val = (i 1).val; omega

/-- The matrix's one block is the matrix, at every point. -/
theorem matrix_block_apply (c : Dev nD) (t : Fin cfg0.N) (k q : Fin 256) :
    (iblk m c 1 t : Vec Ideal S256x256 .bf16) (ix2 k q) = (V m c main_v15 : S256x256.Idx → EReal) (ix2 k q) := by
  obtain ⟨-, -, e10, e11, -⟩ := block_positions t
  unfold iblk
  rw [View.read_apply]
  show (V m c main_v15 : S256x256.Idx → EReal) _ = (V m c main_v15 : S256x256.Idx → EReal) (ix2 k q)
  refine congrArg (V m c main_v15 : S256x256.Idx → EReal) ?_
  funext a
  apply Fin.ext
  match a with
  | ⟨0, _⟩ => show win0_1.index t (0 : Fin 2) * 256 + 1 * k.val = k.val; omega
  | ⟨1, _⟩ => show win0_1.index t (1 : Fin 2) * 256 + 1 * q.val = q.val; omega

/-! ## What a point writes back -/

/-- The product of the whole first argument with the matrix, both as the region finds them. -/
abbrev product (c : Dev nD) : S500000x256.Idx → EReal :=
  Cert.MatProd.rowsByMatrix (V m c main_arg0) (V m c main_v15)

/-- Point `t` writes back block `t` of the product. -/
theorem flushed_eq (c : Dev nD) (t : Fin cfg0.N) :
    (dats m 0 c).flushed 2 t = ((cfg0.win 2).blk t).view.read (Elt Ideal) (product m c) := by
  rw [flushed2]
  unfold out0_2
  rw [View.canon_unit_zero hz]
  simp only [View.ld_unit_zero (S := S5000x256) hz, View.ld_unit_zero (S := S256x256) hz]
  obtain ⟨-, -, -, -, e20, e21⟩ := block_positions t
  funext j
  obtain ⟨p, q, rfl⟩ : ∃ (p : Fin 5000) (q : Fin 256), j = ix2 p q := ⟨j 0, j 1, eq_ix2 j⟩
  have hN : cfg0.N = 100 := N_0
  have hr : t.val * 5000 + p.val < 500000 := by have := t.isLt; have := p.isLt; omega
  show k0_pay1 (iblk m c 0 t) (iblk m c 1 t) (ix2 p q) = product m c (((cfg0.win 2).blk t).view.emb (ix2 p q))
  have hemb : ((cfg0.win 2).blk t).view.emb (ix2 p q) = (ix2 ⟨t.val * 5000 + p.val, hr⟩ q : S500000x256.Idx) := by
    funext a
    apply Fin.ext
    match a with
    | ⟨0, _⟩ => show win0_2.index t (0 : Fin 2) * 5000 + 1 * p.val = t.val * 5000 + p.val; omega
    | ⟨1, _⟩ => show win0_2.index t (1 : Fin 2) * 256 + 1 * q.val = q.val; omega
  rw [hemb]
  refine (BlockProd.stored_apply (iblk m c 0 t) (iblk m c 1 t) p q).trans
    (Eq.trans ?_ (Cert.MatProd.rowsByMatrix_apply _ _ ⟨t.val * 5000 + p.val, hr⟩ q).symm)
  refine Finset.sum_congr rfl fun k _ => ?_
  rw [rows_block_apply m c t p k (ix2 ⟨t.val * 5000 + p.val, hr⟩ k) rfl rfl, matrix_block_apply m c t k q]

/-! ## The blocks tile the result -/

/-- An index is in point `t`'s block iff each coordinate is in the block's range on its axis. -/
theorem mem_block (t : Fin cfg0.N) (i : S500000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v16).slice (win0_2.rect t)).set ↔ _
  rw [View.set_slice_whole, Rect.mem_set_unit]
  exact Iff.rfl

/-- Row `r` of the result lies in the block of point `r / 5000`. -/
theorem covered (i : S500000x256.Idx) :
    ∃ t : Fin cfg0.N, (cfg0.win 2).flush t = true ∧ i ∈ ((cfg0.win 2).blk t).view.set := by
  have hi0 : (i 0).val < 500000 := (i 0).isLt
  have hi1 : (i 1).val < 256 := (i 1).isLt
  have hN : cfg0.N = 100 := N_0
  have ht : (i 0).val / 5000 < cfg0.N := by omega
  obtain ⟨-, -, -, -, e20, e21⟩ := block_positions ⟨(i 0).val / 5000, ht⟩
  refine ⟨⟨(i 0).val / 5000, ht⟩, flush0_2 _, ?_⟩
  rw [mem_block]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e20]; show (i 0).val / 5000 * 5000 ≤ (i 0).val ∧ (i 0).val < (i 0).val / 5000 * 5000 + 5000; omega
  | ⟨1, _⟩ =>
    show win0_2.index ⟨(i 0).val / 5000, ht⟩ (1 : Fin 2) * 256 ≤ (i 1).val
      ∧ (i 1).val < win0_2.index ⟨(i 0).val / 5000, ht⟩ (1 : Fin 2) * 256 + 256
    rw [e21]; omega

/-! ## The run -/

/-- After the run the result array is the product. -/
theorem final (c : Dev nD) : (dats m 0 c).arrAt 2 cfg0.N = product m c :=
  (dats m 0 c).arrAt_eq_of_cover 2 (product m c) (fun t _ => flushed_eq m c t) covered

/-- The product in terms of the arguments as launched. -/
theorem product_eq (c : Dev nD) :
    product m c = Cert.MatProd.rowsByMatrix (m ((c : Thread nD τ).loc main_arg0))
      (scattered (m ((c : Thread nD τ).loc main_arg1)) (m ((c : Thread nD τ).loc main_arg2)) (m ((c : Thread nD τ).loc main_arg3))) := by
  unfold product
  rw [V_main_arg0, matrix_found]

/-- Every weakly fair execution of the kernel's program ends with the result array at the product of the first
    argument with the scattered matrix, the arguments unchanged. -/
theorem run : θ_run defs (onTc (τ := τ) (main (F := Ideal))) ⟨m, fun _ => 0, ρ⟩ fun r => ∀ c : Dev nD,
      r.2.mem ((c : Thread nD τ).loc main_v16) = Cert.MatProd.rowsByMatrix (m ((c : Thread nD τ).loc main_arg0))
        (scattered (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (product_eq m c)), (h c).2⟩)
    (run_blocks m ρ)

end Cert.KernelIdeal.Whole

end
-- ==== Proof.RefProd.lean ====
/-
  The reference's result is the product of its first argument with the matrix it scatters.

  The reference ends in one contraction of X's columns against the rows of the scattered matrix. Read at
  entry (r, c) that contraction is the sum over k of X (r, k) times the matrix's (k, c): the specification's
  function, the matrix being whatever the scatter produced (it is never opened here: both programs build it
  by the same operations).
-/
import proofs.«145697_j35381940584576_2_alg».proof.Proof.Gen.ReferenceIdeal.Read
import proofs.«145697_j35381940584576_2_alg».proof.Proof.MatProd

noncomputable section

open scoped BigOperators

namespace Cert.ReferenceIdeal.RefProd

open Cert.ReferenceIdeal Cert.ReferenceIdeal.Gen Cert.ReferenceIdeal.Read Idealize.ShloMosaic Idealize.ShloMosaic.ValueIdx

/-- The contraction's last stage is `rowsByMatrix` of the first argument and the scattered matrix. -/
theorem result_eq (x0 : (⟨S500000x256, .f32⟩ : BufTy).Contents (Elt Ideal)) (x1 : (⟨S63488, .f32⟩ : BufTy).Contents (Elt Ideal))
    (x2 x3 : (⟨S63488, .i32⟩ : BufTy).Contents (Elt Ideal)) :
    val_main_v15 (F := Ideal) x0 x1 x2 x3 = Cert.MatProd.rowsByMatrix x0 (val_main_v14 (F := Ideal) x1 x2 x3) := by
  funext i
  have el : ∀ k : Fin 256, lidx_main_v15 i k = ix2 (i 0) k := fun k => funext fun a => Fin.ext (by
    match a with
    | ⟨0, _⟩ => rfl
    | ⟨1, _⟩ => rfl)
  have er : ∀ k : Fin 256, ridx_main_v15 i k = ix2 k (i 1) := fun k => funext fun a => Fin.ext (by
    match a with
    | ⟨0, _⟩ => rfl
    | ⟨1, _⟩ => rfl)
  rw [val_main_v15_apply]
  unfold Cert.MatProd.rowsByMatrix
  exact Finset.sum_congr rfl fun k _ => by rw [el k, er k]; rfl

end Cert.ReferenceIdeal.RefProd

end
-- ==== Proof.SameMatrix.lean ====
/-
  The two programs multiply by the same matrix.

  The kernel's program and the reference build their 256 × 256 matrix by the same operations on the same three
  arguments: zeros; each position array with its negative entries moved up by 256; the two arrays paired; the
  weights scattered to those pairs. The kernel's program then narrows the float format, which is the identity
  on the extended reals. So the two matrices are one function of the arguments. The scatter itself is never
  opened: the equality is between the two spellings of each operand, piece by piece.
-/
import proofs.«145697_j35381940584576_2_alg».proof.Proof.ScatteredMatrix
import proofs.«145697_j35381940584576_2_alg».proof.Proof.Gen.ReferenceIdeal.Read

noncomputable section

namespace Cert.SameMatrix

open Idealize.ShloMosaic

/-- Both programs scatter along the same axes. -/
theorem dims_eq : Cert.KernelIdeal.scatter_S256x256_S63488x2_S63488_n_01_01_1
    = Cert.ReferenceIdeal.scatter_S256x256_S63488x2_S63488_n_01_01_1 := rfl

/-- Both start from the same zeros. -/
theorem zeros_eq : (Cert.KernelIdeal.Matrix.zeros : (⟨2, ![256, 256]⟩ : Shape).Idx → EReal)
    = Cert.ReferenceIdeal.Read.val_main_v0 (F := Ideal) := rfl

/-- Both pair the same wrapped positions. -/
theorem positions_eq (x2 x3 : (⟨1, ![63488]⟩ : Shape).Idx → BitVec 32) :
    Cert.KernelIdeal.Matrix.positions x2 x3 = Cert.ReferenceIdeal.Read.val_main_v13 (F := Ideal) x2 x3 := rfl

/-- Narrowing the float format changes nothing on the extended reals. -/
theorem narrow_id (y : (⟨2, ![256, 256]⟩ : Shape).Idx → EReal) (h : FTy.bf16.bits < FTy.f32.bits) :
    truncf (F := Ideal) (s := ⟨2, ![256, 256]⟩) (φ := .f32) .bf16 y h = y := rfl

/-- The matrix the kernel's region finds is the matrix the reference contracts with. -/
theorem scattered_eq (x1 : (⟨1, ![63488]⟩ : Shape).Idx → EReal) (x2 x3 : (⟨1, ![63488]⟩ : Shape).Idx → BitVec 32) :
    (Cert.KernelIdeal.Matrix.scattered x1 x2 x3 : (⟨2, ![256, 256]⟩ : Shape).Idx → EReal)
      = Cert.ReferenceIdeal.Read.val_main_v14 (F := Ideal) x1 x2 x3 := by
  unfold Cert.KernelIdeal.Matrix.scattered Cert.ReferenceIdeal.Read.val_main_v14
  rw [narrow_id, dims_eq, zeros_eq, positions_eq]

end Cert.SameMatrix

end
-- ==== Proof.lean ====
/-
  A product of a 500000 × 256 array with a 256 × 256 matrix, computed 5000 rows at a time, against the same
  product computed at once — equal entry by entry on the extended reals.

  Both programs first build the matrix W from three of the arguments: zeros, with the 63488 weights scattered
  to the (row, column) positions the two integer arrays name. The kernel's program then visits 100 grid points;
  at point t it multiplies rows 5000·t … 5000·t + 4999 of X by W (after narrowing both to the matrix unit's
  format, the identity on the extended reals) and writes the same rows of the result. The reference contracts
  X with W in one operation.

  Entry (r, c) of either result is ∑ₖ X (r, k) · W (k, c), a sum of the same 256 products over the same index:
    * the kernel's block product read at an entry, the zero accumulator adding nothing (BlockProd);
    * the 100 blocks of rows tile the result, so the array after the run is the whole product (KernelArray);
    * the reference's contraction read at an entry (RefProd);
    * the two matrices are one function of the arguments (ScatteredMatrix, SameMatrix).
  Nothing here needs an entry to be finite: no term is moved across a sum and nothing is cancelled, so the
  precondition is not used. The idealization rewrote no operation of the kernel's program, so there is nothing
  to show for it; the three frames are the generated runs.
-/
import proofs.«145697_j35381940584576_2_alg».proof.Defs
import proofs.«145697_j35381940584576_2_alg».proof.Proof.Gen.Kernel
import proofs.«145697_j35381940584576_2_alg».proof.Proof.Gen.Kernel.Skeleton
import proofs.«145697_j35381940584576_2_alg».proof.Proof.Gen.Kernel.Launch
import proofs.«145697_j35381940584576_2_alg».proof.Proof.Gen.Kernel.Points
import proofs.«145697_j35381940584576_2_alg».proof.Proof.Gen.Kernel.Frame
import proofs.«145697_j35381940584576_2_alg».proof.Proof.Gen.KernelIdeal
import proofs.«145697_j35381940584576_2_alg».proof.Proof.Gen.KernelIdeal.Skeleton
import proofs.«145697_j35381940584576_2_alg».proof.Proof.Gen.KernelIdeal.Launch
import proofs.«145697_j35381940584576_2_alg».proof.Proof.Gen.KernelIdeal.Points
import proofs.«145697_j35381940584576_2_alg».proof.Proof.Gen.KernelIdeal.Frame
import proofs.«145697_j35381940584576_2_alg».proof.Proof.Gen.ReferenceIdeal
import proofs.«145697_j35381940584576_2_alg».proof.Proof.Gen.KernelIdeal.Value
import proofs.«145697_j35381940584576_2_alg».proof.Proof.Gen.ReferenceIdeal.Run
import proofs.«145697_j35381940584576_2_alg».proof.Proof.Gen.ReferenceIdeal.Read
import proofs.«145697_j35381940584576_2_alg».proof.Proof.Gen.Pre_finite_inputs
import proofs.«145697_j35381940584576_2_alg».proof.Proof.MatProd
import proofs.«145697_j35381940584576_2_alg».proof.Proof.KernelArray
import proofs.«145697_j35381940584576_2_alg».proof.Proof.RefProd
import proofs.«145697_j35381940584576_2_alg».proof.Proof.SameMatrix
import Idealize.ShloMosaic.Adequacy
import Idealize.ShloMosaic.Init

noncomputable section

namespace Cert.Proof

open Idealize.ShloMosaic Idealize.SL.Sem

/-- The word-level program runs and leaves its arguments as they were. -/
theorem frame_kernel : Cert.frame_Kernel := fun m ρ _ => Cert.Kernel.Gen.frame m ρ

/-- So does the idealized program. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, the kernel's result array ends at the product of the first argument with the
    scattered matrix, and the reference's at its contraction of the same two: one function. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefProd.result_eq,
    (hagree c).1, (hagree c).2.1, (hagree c).2.2.1, (hagree c).2.2.2]
  exact congrArg (Cert.MatProd.rowsByMatrix _) (Cert.SameMatrix.scattered_eq _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
